-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x128 .f32) (main_arg2 : FVec F S1600000 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S10000x128 : Shape := ⟨2, ![10000, 128]⟩

abbrev nBuf : Space → Nat
  | .hbm => 24
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .bf16⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .bf16⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibRowGatherScatter.lean ====
/-
  Rows picked and rows accumulated by an integer list.

  A two-dimensional array `x : [N, C]` indexed by a list of row numbers `idx : [E, 1]` (what `x[idx]` of a matrix at a
  vector of integers lowers to) gives the array `[E, C]` whose row `e` is row `idx e` of `x`, the row number read as a
  signed integer and clamped into `[0, N - 1]`.

  Dually, accumulating the rows of `upd : [E, C]` into `x : [N, C]` at the row numbers `idx : [E, 1]` (a segment sum) gives,
  over the extended reals, at `(r, q)` the entry `x (r, q)` plus the sum over all `e` whose row number, read as a signed
  integer, IS `r` of `upd (e, q)`; a row number outside `[0, N)` lands nowhere.  The sum is written over ALL `e` with the
  summand `0` where the row number is another, so that two such sums over the same list can be compared term by term.

  Both are generic in the extents `N`, `E`, `C`; the dimension numbers are spelt as literals so that a program's own record
  of them unifies (its side condition `wf` is a parameter).
-/
import Idealize.ShloMosaic.Lib.ValueIdx
import Idealize.ShloMosaic.PureOps.Ideal.Laws

noncomputable section

namespace Cert.RowGatherScatter

open Idealize.ShloMosaic Idealize.ShloMosaic.ValueIdx

/-! ## Picking rows -/

section Gather
variable {α : Type}

/-- The dimension numbers of `x[idx]` for a matrix `x : [N, C]` and row numbers `idx : [E, 1]`: the result's axis 1 is the
    offset axis, the operand's axis 0 is collapsed and is the one the start index names. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of `x` that entry `e` of the list names: its word read signed, clamped into `[0, N - 1]`. -/
def srcRow {N E w : Nat} (hN : 0 < N) (idx : IVec ⟨2, ![E, 1]⟩ w) (e : Fin E) : Fin N :=
  ⟨min (idx (ix2 e 0)).toInt.toNat (N - 1), by omega⟩

/-- THE ROW GATHER READ AT `(e, q)`: entry `q` of the row of `x` that entry `e` of the list names. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (srcRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hst : (rowGatherDims N E C wf).start (ix2 e q) idx 1 = 0 := by
      unfold GatherDims.start
      rw [dif_neg (show ¬ (1 : Fin 2) ∈ (rowGatherDims N E C wf).startIndexMap from
        (show ¬ (1 : Fin 2) ∈ ([0] : List (Fin 2)) from by decide))]
    have hoff : (rowGatherDims N E C wf).offCoord (ix2 e q) 1 = q.val := by
      unfold GatherDims.offCoord
      rw [dif_pos (show (1 : Fin 2) ∈ (rowGatherDims N E C wf).sKept from
        ((rowGatherDims N E C wf).mem_sKept 1).2 ⟨(show ¬ (1 : Fin 2) ∈ ([0] : List (Fin 2)) from by decide), List.not_mem_nil⟩)]
      rfl
    rw [hst, hoff]
    omega

end Gather

/-! ## Accumulating rows -/

section Scatter

/-- The dimension numbers of a row accumulation into `[N, C]` of updates `[E, C]` at row numbers `[E, 1]`: the updates'
    axis 1 is the window axis, the operand's axis 0 is inserted and is the one the scatter index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the row number, read signed, and has no extent. -/
theorem start_window_row (e : Fin E) (c : Fin C) :
    (rowScatterDims N E C wf).start (ix2 e c) idx 0 + ((rowScatterDims N E C wf).window (ix2 e c) 0 : ℤ)
      = (idx (ix2 e 0)).toInt := by
  have hw : (rowScatterDims N E C wf).window (ix2 e c) 0 = 0 := by
    unfold ScatterDims.window
    rw [dif_neg (show ¬ (0 : Fin 2) ∈ (rowScatterDims N E C wf).sKept from
      (show ¬ (0 : Fin 2) ∈ (List.finRange 2).filter (· ∉ ([0] : List (Fin 2))) from by decide))]
  have hs : (rowScatterDims N E C wf).start (ix2 e c) idx 0 = (idx (ix2 e 0)).toInt := by
    unfold ScatterDims.start
    rw [dif_pos (show (0 : Fin 2) ∈ (rowScatterDims N E C wf).scatterDimsToOperandDims from List.mem_singleton.mpr rfl)]
    have hsi : (rowScatterDims N E C wf).siIdx (ix2 e c) ⟨List.idxOf (0 : Fin 2) (rowScatterDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

/-- On the column axis the window starts at `0` and the update's column is the window coordinate. -/
theorem start_window_col (e : Fin E) (c : Fin C) :
    (rowScatterDims N E C wf).start (ix2 e c) idx 1 + ((rowScatterDims N E C wf).window (ix2 e c) 1 : ℤ) = (c.val : ℤ) := by
  have hw : (rowScatterDims N E C wf).window (ix2 e c) 1 = c.val := by
    unfold ScatterDims.window
    rw [dif_pos (show (1 : Fin 2) ∈ (rowScatterDims N E C wf).sKept from
      (show (1 : Fin 2) ∈ (List.finRange 2).filter (· ∉ ([0] : List (Fin 2))) from by decide))]
    rfl
  have hs : (rowScatterDims N E C wf).start (ix2 e c) idx 1 = 0 := by
    unfold ScatterDims.start
    rw [dif_neg (show ¬ (1 : Fin 2) ∈ (rowScatterDims N E C wf).scatterDimsToOperandDims from
      (show ¬ (1 : Fin 2) ∈ ([0] : List (Fin 2)) from by decide))]
  rw [hw, hs]; simp

/-- WHERE AN UPDATE LANDS: update `(e, c)` lands at `(r, q)` exactly when entry `e` of the list, read signed, is `r` and
    the columns agree. -/
theorem resultIdx?_eq_some_iff (e : Fin E) (c : Fin C) (r : Fin N) (q : Fin C) :
    (rowScatterDims N E C wf).resultIdx? (ix2 e c) idx = some (ix2 r q) ↔ (idx (ix2 e 0)).toInt = (r.val : ℤ) ∧ c = q := by
  have h0 := start_window_row wf idx e c
  have h1 := start_window_col wf idx e c
  unfold ScatterDims.resultIdx?
  split
  · rename_i h
    rw [Option.some.injEq]
    constructor
    · intro hf
      have e0 : ((rowScatterDims N E C wf).start (ix2 e c) idx 0 + ((rowScatterDims N E C wf).window (ix2 e c) 0 : ℤ)).toNat = r.val :=
        congrArg (fun f : (⟨2, ![N, C]⟩ : Shape).Idx => (f 0).val) hf
      have e1 : ((rowScatterDims N E C wf).start (ix2 e c) idx 1 + ((rowScatterDims N E C wf).window (ix2 e c) 1 : ℤ)).toNat = q.val :=
        congrArg (fun f : (⟨2, ![N, C]⟩ : Shape).Idx => (f 1).val) hf
      have b0 := (h 0).1
      rw [h0] at e0 b0
      rw [h1] at e1
      exact ⟨by omega, Fin.ext (by omega)⟩
    · rintro ⟨hr, rfl⟩
      funext a; refine Fin.ext ?_
      match a with
      | ⟨0, _⟩ =>
        show ((rowScatterDims N E C wf).start (ix2 e c) idx 0 + ((rowScatterDims N E C wf).window (ix2 e c) 0 : ℤ)).toNat = r.val
        rw [h0, hr]; simp
      | ⟨1, _⟩ =>
        show ((rowScatterDims N E C wf).start (ix2 e c) idx 1 + ((rowScatterDims N E C wf).window (ix2 e c) 1 : ℤ)).toNat = c.val
        rw [h1]; simp
  · rename_i h
    constructor
    · intro hf; cases hf
    · rintro ⟨hr, rfl⟩
      exfalso; apply h
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, hr]; have := r.isLt; omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1]; have := c.isLt; omega

/-- THE ROW ACCUMULATION READ AT `(r, q)`, over the extended reals: the operand's entry plus the sum over every `e` of
    `upd (e, q)` where entry `e` of the list is `r`, of `0` elsewhere. -/
theorem scatterAdd_rows_apply (x : (⟨2, ![N, C]⟩ : Shape).Idx → EReal) (upd : (⟨2, ![E, C]⟩ : Shape).Idx → EReal)
    (r : Fin N) (q : Fin C) :
    Ideal.hostScatterAdd (rowScatterDims N E C wf) x idx upd (ix2 r q)
      = x (ix2 r q) + ∑ e : Fin E, if (idx (ix2 e 0)).toInt = (r.val : ℤ) then upd (ix2 e q) else 0 := by
  unfold Ideal.hostScatterAdd
  congr 1
  rw [Finset.sum_filter, sum_idx2]
  refine Finset.sum_congr rfl fun e _ => ?_
  simp only [resultIdx?_eq_some_iff wf idx e _ r q]
  by_cases hr : (idx (ix2 e 0)).toInt = (r.val : ℤ)
  · simp only [hr, true_and, if_true]
    rw [Finset.sum_ite_eq' Finset.univ q (fun c => upd (ix2 e c))]
    simp
  · simp only [hr, false_and, if_false]
    exact Finset.sum_const_zero

/-- The same for the host operation as a program prints it, `Host.scatterAdd` read at the extended reals (there it IS the
    exact sum above, whatever order the colliding updates are added in). -/
theorem host_scatterAdd_rows_apply {φ : FTy} (x : FVec Ideal ⟨2, ![N, C]⟩ φ) (upd : FVec Ideal ⟨2, ![E, C]⟩ φ)
    (r : Fin N) (q : Fin C) :
    Host.scatterAdd (F := Ideal) (rowScatterDims N E C wf) x idx upd (ix2 r q)
      = x (ix2 r q) + ∑ e : Fin E, if (idx (ix2 e 0)).toInt = (r.val : ℤ) then upd (ix2 e q) else 0 :=
  scatterAdd_rows_apply wf idx x upd r q

end Scatter

end Cert.RowGatherScatter

end
-- ==== Proof.Linearity.lean ====
/-
  The one algebraic law of this certificate: a weighted sum of rows, multiplied by a matrix, is the weighted sum of the
  rows each multiplied by the matrix,

      ∑ₖ (∑ₑ [P e] vₑ · Xₑₖ) · Wₖ  =  ∑ₑ [P e] vₑ · (∑ₖ Xₑₖ · Wₖ),

  where `[P e]` keeps the edges `e` that land on the row in question.  It is distributivity and a change of the order of
  summation, so it holds over the real numbers; over the extended reals distributivity fails at the infinities, and the
  law is stated for REAL entries seen as extended reals — which is what the finiteness precondition gives.
-/
import Mathlib.Data.EReal.Operations
import Mathlib.Algebra.BigOperators.Ring.Finset
import Mathlib.Algebra.BigOperators.Group.Finset.Sigma

namespace Cert.Linearity

open Finset

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with a choice between a real and zero. -/
theorem ite_coe (P : Prop) [Decidable P] (a : ℝ) : (if P then (a : EReal) else 0) = ((if P then a else 0 : ℝ) : EReal) := by
  split <;> simp

/-- The law over the reals: distribute the factor `Wₖ` over the inner sum, exchange the two sums, and collect the
    factor `vₑ`. -/
theorem real_agg_mul {ι κ : Type*} [Fintype ι] [Fintype κ] (P : ι → Prop) [DecidablePred P] (v : ι → ℝ) (X : ι → κ → ℝ)
    (W : κ → ℝ) :
    (∑ k, (∑ e, if P e then v e * X e k else 0) * W k) = ∑ e, if P e then v e * ∑ k, X e k * W k else 0 := by
  simp only [Finset.sum_mul]
  rw [Finset.sum_comm]
  refine Finset.sum_congr rfl fun e _ => ?_
  by_cases h : P e
  · simp only [h, if_true, Finset.mul_sum, mul_assoc]
  · simp only [h, if_false, zero_mul, Finset.sum_const_zero]

/-- The law over the extended reals, for real entries. -/
theorem agg_mul {ι κ : Type*} [Fintype ι] [Fintype κ] (P : ι → Prop) [DecidablePred P] (v : ι → ℝ) (X : ι → κ → ℝ)
    (W : κ → ℝ) :
    (∑ k, (∑ e, if P e then (v e : EReal) * (X e k : EReal) else 0) * (W k : EReal))
      = ∑ e, if P e then (v e : EReal) * (∑ k, (X e k : EReal) * (W k : EReal)) else 0 := by
  have hL : ∀ k, (∑ e, if P e then (v e : EReal) * (X e k : EReal) else 0)
      = ((∑ e, if P e then v e * X e k else 0 : ℝ) : EReal) := fun k => by
    rw [coe_sum]; exact Finset.sum_congr rfl fun e _ => by rw [← EReal.coe_mul, ite_coe]
  have hR : ∀ e, (∑ k, (X e k : EReal) * (W k : EReal)) = ((∑ k, X e k * W k : ℝ) : EReal) := fun e => by
    rw [coe_sum]; exact Finset.sum_congr rfl fun k _ => (EReal.coe_mul _ _).symm
  calc (∑ k, (∑ e, if P e then (v e : EReal) * (X e k : EReal) else 0) * (W k : EReal))
      = ∑ k, (((∑ e, if P e then v e * X e k else 0) * W k : ℝ) : EReal) :=
        Finset.sum_congr rfl fun k _ => by rw [hL k, EReal.coe_mul]
    _ = (((∑ k, (∑ e, if P e then v e * X e k else 0) * W k) : ℝ) : EReal) := (coe_sum _ _).symm
    _ = (((∑ e, if P e then v e * ∑ k, X e k * W k else 0) : ℝ) : EReal) := by rw [real_agg_mul]
    _ = ∑ e, (((if P e then v e * ∑ k, X e k * W k else 0) : ℝ) : EReal) := coe_sum _ _
    _ = ∑ e, if P e then (v e : EReal) * (∑ k, (X e k : EReal) * (W k : EReal)) else 0 :=
        Finset.sum_congr rfl fun e _ => by rw [hR e, ← EReal.coe_mul, ite_coe]

end Cert.Linearity
-- ==== Proof.Spec.lean ====
/-
  What both programs compute, as functions of the argument arrays, index by index.

  A graph layer over `N = 100000` nodes with `128` features and `E = 1600000` edges.  Edge `e` has a weight `vals e`, a
  target node (the row number `idxR (e, 0)`, read as a signed integer; an edge whose row number is no node contributes
  nowhere) and a source node `src e`.  With `x` the node features and `W` the `128 × 128` weight matrix:

    * AGGREGATE, THEN TRANSFORM: entry `(r, q)` is `max (∑ₖ (∑ over the edges e into r of vals e · x (src e, k)) · W (k, q)) 0`;
    * TRANSFORM, THEN AGGREGATE: entry `(r, q)` is `max (∑ over the edges e into r of vals e · (∑ₖ x (src e, k) · W (k, q))) 0`.

  They are equal when every entry of `x`, `W` and `vals` is a real number (`Linearity.agg_mul`).
-/
import proofs.«137914_j26551487823936_2_alg».proof.Proof.Linearity
import Idealize.ShloMosaic.Lib.ValueIdx

noncomputable section

namespace Cert.Spec

open Idealize.ShloMosaic Idealize.ShloMosaic.ValueIdx

/-- The node features' shape, the weight matrix's, the edge list's, and the edge list's as a column. -/
abbrev SX : Shape := ⟨2, ![100000, 128]⟩
abbrev SW : Shape := ⟨2, ![128, 128]⟩
abbrev SE : Shape := ⟨1, ![1600000]⟩
abbrev SE1 : Shape := ⟨2, ![1600000, 1]⟩

variable (x : SX.Idx → EReal) (W : SW.Idx → EReal) (vals : SE.Idx → EReal) (idxR : IVec SE1 32)
  (src : Fin 1600000 → Fin 100000)

/-- The features aggregated over the edges into each node: entry `(r, k)`. -/
def agg (i : SX.Idx) : EReal :=
  ∑ e : Fin 1600000, if (idxR (ix2 e 0)).toInt = ((i 0).val : ℤ) then vals (ix1 e) * x (ix2 (src e) (i 1)) else 0

/-- A feature array times the weight matrix, clipped at zero: entry `(r, q)` is `max (∑ₖ A (r, k) · W (k, q)) 0`. -/
def mulRelu (A : SX.Idx → EReal) (W : SW.Idx → EReal) (i : SX.Idx) : EReal :=
  max (∑ k : Fin 128, A (ix2 (i 0) k) * W (ix2 k (i 1))) 0

/-- Aggregate, then transform and clip at zero. -/
def aggThenMul : SX.Idx → EReal := mulRelu (agg x vals idxR src) W

/-- Transform, then aggregate and clip at zero. -/
def mulThenAgg (i : SX.Idx) : EReal :=
  max (∑ e : Fin 1600000, if (idxR (ix2 e 0)).toInt = ((i 0).val : ℤ)
    then vals (ix1 e) * (∑ k : Fin 128, x (ix2 (src e) k) * W (ix2 k (i 1))) else 0) 0

/-- For real entries the two are one function. -/
theorem aggThenMul_eq_mulThenAgg (hx : ∀ i, ∃ r : ℝ, x i = (r : EReal)) (hW : ∀ i, ∃ r : ℝ, W i = (r : EReal))
    (hv : ∀ i, ∃ r : ℝ, vals i = (r : EReal)) :
    aggThenMul x W vals idxR src = mulThenAgg x W vals idxR src := by
  choose x' hx' using hx
  choose W' hW' using hW
  choose v' hv' using hv
  funext i
  unfold aggThenMul mulRelu mulThenAgg agg
  simp only [hx', hW', hv']
  exact congrArg (max · 0)
    (Linearity.agg_mul (fun e : Fin 1600000 => (idxR (ix2 e 0)).toInt = ((i 0).val : ℤ)) (fun e => v' (ix1 e))
      (fun e k => x' (ix2 (src e) k)) (fun k : Fin 128 => W' (ix2 k (i 1))))

end Cert.Spec

end
-- ==== Proof.KernelAgg.lean ====
/-
  The kernel's first operand as the region finds it: before the matrix kernel runs, the host gathers the source
  nodes' features along the edges, weights them and accumulates them into the target nodes.  Entry `(r, k)` of that
  array is the specification's `agg`: the sum over the edges into node `r` of the edge's weight times feature `k` of
  the edge's source node.  (The features pass through a narrower float format on the way; over the extended reals a
  change of format is the identity.)
-/
import proofs.«137914_j26551487823936_2_alg».proof.Proof.Gen.KernelIdeal.Frame
import proofs.«137914_j26551487823936_2_alg».proof.Proof.LibRowGatherScatter
import proofs.«137914_j26551487823936_2_alg».proof.Proof.Spec
import Idealize.ShloMosaic.Lib.Pipeline.Value
import Idealize.ShloMosaic.Lib.StableHlo.Run

noncomputable section

namespace Cert.KernelAgg

open Cert.KernelIdeal Cert.KernelIdeal.Gen
open Idealize.ShloMosaic Idealize.ShloMosaic.TcCoe Idealize.SL.Sem Idealize.ShloMosaic.ValueIdx Cert.RowGatherScatter

/-- The target row numbers as a column. -/
def rowsCol (x3 : IVec S1600000 32) : IVec S1600000x1 32 :=
  broadcastInDim S1600000x1 ![0] bcast_S1600000_S1600000x1_0 x3

/-- The source row numbers, a negative one counted from the end, as a column. -/
def colsCol (x4 : IVec S1600000 32) : IVec S1600000x1 32 :=
  broadcastInDim S1600000x1 ![0] bcast_S1600000_S1600000x1_0
    (select (cmpi .slt x4 (broadcastInDim S1600000 ![] bcast_S_S1600000 (constantI S_ 32 0#32)))
      (addi x4 (broadcastInDim S1600000 ![] bcast_S_S1600000 (constantI S_ 32 100000#32))) x4)

/-- The host operations before the region, composed: the aggregated features as a term of the arguments. -/
def aggTerm (x0 : FVec Ideal S100000x128 .f32) (x2 : FVec Ideal S1600000 .f32) (x3 x4 : IVec S1600000 32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (rowsCol x3)
    (mulf (broadcastInDim S1600000x128 ![0, 1] bcast_S1600000x1_S1600000x128_0_1
        (broadcastInDim S1600000x1 ![0] bcast_S1600000_S1600000x1_0 x2))
      (extf .f32 (Host.gather gather_S100000x128_S1600000x1_S1600000x128_1_0_n_n_0_1_1128
        (truncf .bf16 x0 bitsLt_bf16_f32) (colsCol x4)) bitsLt_bf16_f32))

variable (m : (ℓ : Loc nD τ sig) → Buf (Elt Ideal) ℓ)

/-- The region finds its first operand at that term of the argument arrays. -/
theorem V_agg (c : Dev nD) :
    (V m c main_v14 : S100000x128.Idx → EReal)
      = aggTerm (m ((c : Thread nD τ).loc main_arg0)) (m ((c : Thread nD τ).loc main_arg2))
          (m ((c : Thread nD τ).loc main_arg3)) (m ((c : Thread nD τ).loc main_arg4)) := by
  dsimp only [Gen.V, Gen.hostOps0]
  after_results
  rfl

variable (x0 : FVec Ideal S100000x128 .f32) (x2 : FVec Ideal S1600000 .f32) (x3 x4 : IVec S1600000 32)

/-- The array the accumulation starts from is zero everywhere. -/
theorem start_zero (i : S100000x128.Idx) :
    broadcastInDim S100000x128 ![] bcast_S_S100000x128 (constant (F := Ideal) S_ .f32 0x00000000#32) i = 0 :=
  (broadcastInDim_apply _ bcast_S_S100000x128 _ i ix0 (fun a => a.elim0)).trans Ideal.ofBits_zero_f32

/-- The edge weights spread over the feature axis: entry `(e, q)` is the weight of edge `e`. -/
theorem weight_at (e : Fin 1600000) (q : Fin 128) :
    broadcastInDim S1600000x128 ![0, 1] bcast_S1600000x1_S1600000x128_0_1
      (broadcastInDim S1600000x1 ![0] bcast_S1600000_S1600000x1_0 x2) (ix2 e q) = x2 (ix1 e) :=
  (broadcastInDim_apply _ bcast_S1600000x1_S1600000x128_0_1 _ (ix2 e q) (ix2 e 0) (fun a => match a with
    | ⟨0, _⟩ => by show e.val = if (1600000 : Nat) = 1 then 0 else e.val; rw [if_neg (by decide)]
    | ⟨1, _⟩ => by show 0 = if (1 : Nat) = 1 then 0 else q.val; rw [if_pos rfl])).trans
  (broadcastInDim_apply _ bcast_S1600000_S1600000x1_0 x2 (ix2 e 0) (ix1 e) (fun a => match a with
    | ⟨0, _⟩ => by show e.val = if (1600000 : Nat) = 1 then 0 else e.val; rw [if_neg (by decide)]))

/-- The gathered features: entry `(e, q)` is feature `q` of edge `e`'s source node. -/
theorem gathered_at (e : Fin 1600000) (q : Fin 128) :
    extf .f32 (Host.gather gather_S100000x128_S1600000x1_S1600000x128_1_0_n_n_0_1_1128
        (truncf .bf16 x0 bitsLt_bf16_f32) (colsCol x4)) bitsLt_bf16_f32 (ix2 e q)
      = x0 (ix2 (srcRow (N := 100000) (by decide) (colsCol x4) e) q) := by
  rw [extf_apply]
  refine (gather_rows_apply (N := 100000) (by decide) _ (truncf .bf16 x0 bitsLt_bf16_f32) (colsCol x4) e q).trans ?_
  rw [truncf_apply]

/-- THE AGGREGATED FEATURES at `(r, k)`. -/
theorem aggTerm_apply (r : Fin 100000) (k : Fin 128) :
    aggTerm x0 x2 x3 x4 (ix2 r k)
      = Spec.agg x0 x2 (rowsCol x3) (srcRow (N := 100000) (by decide) (colsCol x4)) (ix2 r k) := by
  unfold aggTerm Spec.agg
  refine (host_scatterAdd_rows_apply _ (rowsCol x3) _ _ r k).trans ?_
  rw [start_zero, zero_add]
  refine Finset.sum_congr rfl fun e _ => ?_
  rw [mulf_apply, weight_at, gathered_at]

end Cert.KernelAgg

end
-- ==== Proof.KernelValue.lean ====
/-
  The kernel's result, index by index.  The region runs over ten blocks of 10000 rows.  At each block the body multiplies
  the block of the aggregated features by the whole weight matrix (into a zero accumulator, so the product is the plain
  sum over the contracted coordinate) and clips at zero; entry `(p, q)` of what it stores depends on row `p` of the
  block and column `q` of the matrix only, so block `t` of the output is block `t` of ONE function of the two arrays,
  the specification's `mulRelu`.  The ten blocks tile the output, hence the output array is that function; with the first
  operand read as the host's aggregation it is the specification's `aggThenMul` of the arguments.
-/
import proofs.«137914_j26551487823936_2_alg».proof.Proof.Gen.KernelIdeal.Value
import proofs.«137914_j26551487823936_2_alg».proof.Proof.KernelAgg
import Idealize.ShloMosaic.PureOps.Ideal.Laws
import Idealize.ShloMosaic.Lib.ValueIdx

noncomputable section

namespace Cert.KernelValue

open Cert.KernelIdeal Cert.KernelIdeal.Gen Cert.KernelIdeal.Value
open Idealize.ShloMosaic Idealize.ShloMosaic.TcCoe Idealize.SL.Sem Idealize.ShloMosaic.ValueIdx Cert.RowGatherScatter
open Idealize.ShloMosaic.Pipeline (Dat)

/-! ## The body's product at an entry -/

/-- The left operand's index at output entry `i` and contraction index `s`: row `i 0`, … -/
theorem lhs_row (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … column the contracted coordinate. -/
theorem lhs_col (i : S10000x128.Idx) (s : dot_S10000x128_S128x128_S10000x128_1_0_0_1_n_n.contr.Idx) :
    (dot_S10000x128_S128x128_S10000x128_1_0_0_1_n_n.lhsIdx i s 1).val = (s ⟨0, by decide⟩).val :=
  dot_S10000x128_S128x128_S10000x128_1_0_0_1_n_n.lhsIdx_val_of_single rfl i s
/-- The right operand's: row the contracted coordinate, … -/
theorem rhs_row (i : S10000x128.Idx) (s : dot_S10000x128_S128x128_S10000x128_1_0_0_1_n_n.contr.Idx) :
    (dot_S10000x128_S128x128_S10000x128_1_0_0_1_n_n.rhsIdx i s 0).val = (s ⟨0, by decide⟩).val :=
  dot_S10000x128_S128x128_S10000x128_1_0_0_1_n_n.rhsIdx_val_of_single rfl i s
/-- … column `i 1`. -/
theorem rhs_col (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- WHAT THE BODY STORES at `(p, q)`: the product of row `p` of the loaded block with column `q` of the loaded matrix,
    clipped at zero. -/
theorem pay_apply (x0 : Vec Ideal S10000x128 .f32) (x1 : Vec Ideal S128x128 .f32) (p : Fin 10000) (q : Fin 128) :
    k0_pay1 x0 x1 (ix2 p q) = max (∑ k : Fin 128, x0 (ix2 p k) * x1 (ix2 k q)) 0 := by
  unfold k0_pay1
  show max (FloatOps.matmul dot_S10000x128_S128x128_S10000x128_1_0_0_1_n_n none
      (truncf .bf16 (shapeCast S10000x128 x0 shapeCasts_S10000x128_S10000x128) bitsLt_bf16_f32)
      (truncf .bf16 x1 bitsLt_bf16_f32) (constant S10000x128 .f32 0x00000000#32) (ix2 p q))
    (Ideal.ofBits .f32 0x00000000#32) = _
  rw [Ideal.matmul_constant_zero_apply, Ideal.ofBits_zero_f32, shapeCast_self,
    ← Equiv.sum_comp (contrEquiv1 dot_S10000x128_S128x128_S10000x128_1_0_0_1_n_n 128 rfl rfl).symm]
  refine congrArg (max · 0) (Finset.sum_congr rfl fun k _ => ?_)
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  show x0 (dot_S10000x128_S128x128_S10000x128_1_0_0_1_n_n.lhsIdx (ix2 p q) _)
    * x1 (dot_S10000x128_S128x128_S10000x128_1_0_0_1_n_n.rhsIdx (ix2 p q) _) = _
  rw [el, er]

/-! ## From the blocks to the array -/

variable (m : (ℓ : Loc nD τ sig) → Buf (Elt Ideal) ℓ) (ρ : Dev nD → PrngReg)

theorem off_zero : (![0, 0] : Fin 2 → Nat) = fun _ => 0 := funext fun a => by fin_cases a <;> rfl

/-- The printed index maps, decided over the ten grid points: the feature block and the output block are block `t`
    along the rows and the only block along the columns; the weight matrix is its only block. -/
theorem blocks_at : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some grid point's. -/
theorem block_onto : ∀ b : Fin 10, ∃ t : Fin cfg0.N, win0_2.index t = ![b.val, 0] :=
  (by decide +kernel : ∀ b : Fin 10, ∃ t : Fin grid0.N, win0_2.index t = ![b.val, 0])

/-- Block `t` of the body's result on blocks `t` of ANY two arrays is block `t` of `mulRelu` of the arrays: entry
    `(p, q)` of the block is entry `(10000 t + p, q)` of the array, and the product there reads row `10000 t + p` of the
    first array and column `q` of the second. -/
theorem block_eq (A : S100000x128.Idx → EReal) (W : S128x128.Idx → EReal) (t : Fin cfg0.N) :
    (cfg0.win 2).cut (grid0.coords t)
        (out0_2 (((cfg0.win 0).blk t).view.read (Elt Ideal) A) (((cfg0.win 1).blk t).view.read (Elt Ideal) W))
      = ((cfg0.win 2).blk t).view.read (Elt Ideal) (Spec.mulRelu A W) := by
  unfold out0_2
  rw [View.canon_unit_zero off_zero]
  simp only [View.ld_unit_zero (S := S10000x128) off_zero, View.ld_unit_zero (S := S128x128) off_zero]
  obtain ⟨e0, e1, e2, e3, e4, e5⟩ := blocks_at t
  funext j
  obtain ⟨p, q, rfl⟩ : ∃ (p : Fin 10000) (q : Fin 128), j = ix2 p q := ⟨j 0, j 1, eq_ix2 j⟩
  show k0_pay1 (((cfg0.win 0).blk t).view.read (Elt Ideal) A) (((cfg0.win 1).blk t).view.read (Elt Ideal) W) (ix2 p q)
    = Spec.mulRelu A W (((cfg0.win 2).blk t).view.emb (ix2 p q))
  refine (pay_apply (((cfg0.win 0).blk t).view.read (Elt Ideal) A) (((cfg0.win 1).blk t).view.read (Elt Ideal) W) p q).trans ?_
  unfold Spec.mulRelu
  refine congrArg (max · 0) (Finset.sum_congr rfl fun k _ => ?_)
  show A (((cfg0.win 0).blk t).view.emb (ix2 p k)) * W (((cfg0.win 1).blk t).view.emb (ix2 k q))
    = A (ix2 ((((cfg0.win 2).blk t).view.emb (ix2 p q)) 0) k) * W (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  have h1 : ((cfg0.win 1).blk t).view.emb (ix2 k q) = ix2 k ((((cfg0.win 2).blk t).view.emb (ix2 p q)) 1) := by
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [h0, h1]
  rfl

/-- WHAT POINT `t` WRITES BACK is block `t` of `mulRelu` of the two arrays as the region finds them. -/
theorem flushed_eq (c : Dev nD) (t : Fin cfg0.N) :
    (dats m 0 c).flushed 2 t
      = ((cfg0.win 2).blk t).view.read (Elt Ideal)
          (Spec.mulRelu (V m c main_v14 : S100000x128.Idx → EReal) (V m c main_arg1 : S128x128.Idx → EReal)) :=
  (flushed2 m c t).trans (block_eq (V m c main_v14) (V m c main_arg1) t)

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v15).slice (win0_2.rect t)).set ↔ _
  rw [View.set_slice_whole, Rect.mem_set_unit]
  exact Iff.rfl

/-- The ten blocks cover the output: row `r` is in block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE OUTPUT ARRAY after the run is `mulRelu` of the two arrays as the region finds them. -/
theorem final (c : Dev nD) :
    (dats m 0 c).arrAt 2 cfg0.N
      = Spec.mulRelu (V m c main_v14 : S100000x128.Idx → EReal) (V m c main_arg1 : S128x128.Idx → EReal) :=
  (dats m 0 c).arrAt_eq_of_cover 2 _ (fun t _ => flushed_eq m c t) cover

/-! ## The result as a function of the arguments -/

/-- The region's two operands read back to the arguments: the output is `aggThenMul`. -/
theorem value_eq (c : Dev nD) :
    Spec.mulRelu (V m c main_v14 : S100000x128.Idx → EReal) (V m c main_arg1 : S128x128.Idx → EReal)
      = Spec.aggThenMul (m ((c : Thread nD τ).loc main_arg0)) (m ((c : Thread nD τ).loc main_arg1))
          (m ((c : Thread nD τ).loc main_arg2)) (KernelAgg.rowsCol (m ((c : Thread nD τ).loc main_arg3)))
          (srcRow (N := 100000) (by decide) (KernelAgg.colsCol (m ((c : Thread nD τ).loc main_arg4)))) := by
  unfold Spec.aggThenMul
  rw [V_main_arg1, KernelAgg.V_agg]
  refine congrArg (fun A => Spec.mulRelu A _) (funext fun i => ?_)
  obtain ⟨r, k, rfl⟩ : ∃ (r : Fin 100000) (k : Fin 128), i = ix2 r k := ⟨i 0, i 1, eq_ix2 i⟩
  exact KernelAgg.aggTerm_apply _ _ _ _ r k

/-- THE KERNEL'S RUN, read: the result array ends at `aggThenMul` of the arguments, the arguments unchanged. -/
theorem run : θ_run defs (onTc (τ := τ) (main (F := Ideal))) ⟨m, fun _ => 0, ρ⟩ fun r => ∀ c : Dev nD,
      r.2.mem ((c : Thread nD τ).loc main_v15)
        = Spec.aggThenMul (m ((c : Thread nD τ).loc main_arg0)) (m ((c : Thread nD τ).loc main_arg1))
            (m ((c : Thread nD τ).loc main_arg2)) (KernelAgg.rowsCol (m ((c : Thread nD τ).loc main_arg3)))
            (srcRow (N := 100000) (by decide) (KernelAgg.colsCol (m ((c : Thread nD τ).loc main_arg4))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (value_eq m c)), (h c).2⟩)
    (run_blocks m ρ)

end Cert.KernelValue

end
-- ==== Proof.RefValue.lean ====
/-
  The reference's result, index by index: it transforms every node's features by the weight matrix first, then gathers
  the transformed rows along the edges, weights them, accumulates them into the target nodes and clips at zero — the
  specification's `mulThenAgg`.  The elementwise stages and the matrix product are read by the generated lemmas; the
  gather and the accumulation, whose positions depend on the integer arguments, by the row lemmas.
-/
import proofs.«137914_j26551487823936_2_alg».proof.Proof.Gen.ReferenceIdeal.Read
import proofs.«137914_j26551487823936_2_alg».proof.Proof.LibRowGatherScatter
import proofs.«137914_j26551487823936_2_alg».proof.Proof.Spec

noncomputable section

namespace Cert.RefValue

open Cert.ReferenceIdeal Cert.ReferenceIdeal.Gen Cert.ReferenceIdeal.Read
open Idealize.ShloMosaic Idealize.ShloMosaic.ValueIdx Cert.RowGatherScatter

variable (x0 : FVec Ideal S100000x128 .f32) (x1 : FVec Ideal S128x128 .f32) (x2 : FVec Ideal S1600000 .f32)
  (x3 x4 : IVec S1600000 32)

/-- The array the accumulation starts from is zero everywhere. -/
theorem start_zero (i : S100000x128.Idx) : val_main_v11 (F := Ideal) i = 0 := by
  rw [val_main_v11_apply, val_main_cst_apply]; exact Ideal.ofBits_zero_f32

/-- The array the result is clipped against is zero everywhere. -/
theorem clip_zero (i : S100000x128.Idx) : val_main_call0_v0 (F := Ideal) i = 0 := by
  rw [val_main_call0_v0_apply, val_main_call0_cst_apply]; exact Ideal.ofBits_zero_f32

/-- The edge weights spread over the feature axis: entry `(e, q)` is the weight of edge `e`. -/
theorem weight_at (e : Fin 1600000) (q : Fin 128) : val_main_v9 (F := Ideal) x2 (ix2 e q) = x2 (ix1 e) := by
  rw [val_main_v9_apply, val_main_v1_apply]
  refine congrArg x2 (funext fun a => ?_)
  match a with
  | ⟨0, _⟩ => rfl

/-- The gathered transformed features: entry `(e, q)` is entry `q` of the source node's features times the weight matrix. -/
theorem gathered_at (e : Fin 1600000) (q : Fin 128) :
    val_main_v8 (F := Ideal) x0 x1 x4 (ix2 e q)
      = ∑ k : Fin 128, x0 (ix2 (srcRow (N := 100000) (by decide) (val_main_v7 (F := Ideal) x4) e) k) * x1 (ix2 k q) := by
  unfold val_main_v8
  refine (gather_rows_apply (N := 100000) (by decide) _ (val_main_v0 (F := Ideal) x0 x1) (val_main_v7 (F := Ideal) x4) e q).trans ?_
  rw [val_main_v0_apply]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- THE REFERENCE'S RESULT is `mulThenAgg` of the arguments, the target rows read off `x3` and the source rows off `x4`. -/
theorem result_eq :
    val_main_v14 (F := Ideal) x0 x1 x2 x3 x4
      = Spec.mulThenAgg x0 x1 x2 (val_main_v12 (F := Ideal) x3) (srcRow (N := 100000) (by decide) (val_main_v7 (F := Ideal) x4)) := by
  funext i
  obtain ⟨r, q, rfl⟩ : ∃ (r : Fin 100000) (q : Fin 128), i = ix2 r q := ⟨i 0, i 1, eq_ix2 i⟩
  rw [val_main_v14_apply, clip_zero]
  unfold Spec.mulThenAgg
  show max (val_main_v13 (F := Ideal) x0 x1 x2 x3 x4 (ix2 r q)) 0 = _
  refine congrArg (max · 0) ?_
  unfold val_main_v13
  refine (host_scatterAdd_rows_apply _ (val_main_v12 (F := Ideal) x3) (val_main_v11 (F := Ideal))
    (val_main_v10 (F := Ideal) x0 x1 x2 x4) r q).trans ?_
  rw [start_zero, zero_add]
  refine Finset.sum_congr rfl fun e _ => ?_
  rw [val_main_v10_apply, weight_at, gathered_at]
  rfl

end Cert.RefValue

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  What the precondition gives: it is the conjunction of three statements "every entry of this array has absolute
  value below +∞", one per float argument, so every entry of the node features, of the weight matrix and of the edge
  weights is a real number.
-/
import proofs.«137914_j26551487823936_2_alg».proof.Pre_finite_inputs
import proofs.«137914_j26551487823936_2_alg».proof.Proof.LibFiniteInputs
import Idealize.ShloMosaic.Lib.Affine

noncomputable section

namespace Cert.Finite

open Idealize.ShloMosaic Idealize.ShloMosaic.ValueIdx Cert.Pre_finite_inputs

variable [Cert.Pre_finite_inputs.Facts]

/-- Under the precondition the three float arguments hold real numbers only. -/
theorem real_of_pre (x0 : FVec Ideal S100000x128 .f32) (x1 : FVec Ideal S128x128 .f32) (x2 : FVec Ideal S1600000 .f32)
    (x3 x4 : IVec S1600000 32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.mp h0
  obtain ⟨ha, hb⟩ := IntOp.andi_eq_one.mp h01
  exact ⟨FiniteInputs.all_real x0 _ _ _ ha, FiniteInputs.all_real x1 _ _ _ hb, FiniteInputs.all_real x2 _ _ _ h2⟩

end Cert.Finite

end
-- ==== Proof.lean ====
/-
  A graph layer over 100000 nodes with 128 features and 1600000 weighted edges, against its reference.

  THE KERNEL aggregates first: on the host it gathers the source nodes' feature rows along the edges, scales each by its
  edge's weight and accumulates the rows into the target nodes; then one matrix kernel, over ten blocks of 10000 rows,
  multiplies the aggregated features by the 128 × 128 weight matrix and clips at zero.  THE REFERENCE transforms first:
  it multiplies every node's features by the weight matrix, gathers the transformed rows along the edges, scales,
  accumulates and clips.  Both read the edge lists in the same way: a source row number is counted from the end when
  negative and clamped into range, a target row number outside the range contributes nowhere.

  Over the extended reals a change of float format is the identity, the kernel's product into a zero accumulator and the
  host's contraction are the same finite sum, and an accumulation is a finite sum over the edges that land on the entry.
  So entry (r, q) of the kernel's result is  max (∑ₖ (∑ over the edges e into r of vₑ · x (src e, k)) · W (k, q)) 0  and
  the reference's is  max (∑ over the edges e into r of vₑ · (∑ₖ x (src e, k) · W (k, q))) 0.  They are equal by
  distributivity and an exchange of the two sums — a law of the real numbers that fails at the infinities — and the
  precondition (every float input finite) makes every entry a real number.  The idealization rewrote nothing, and the
  three frames are the programs' runs with the result dropped.
-/
import proofs.«137914_j26551487823936_2_alg».proof.Defs
import proofs.«137914_j26551487823936_2_alg».proof.Proof.Gen.Kernel
import proofs.«137914_j26551487823936_2_alg».proof.Proof.Gen.Kernel.Skeleton
import proofs.«137914_j26551487823936_2_alg».proof.Proof.Gen.Kernel.Launch
import proofs.«137914_j26551487823936_2_alg».proof.Proof.Gen.Kernel.Points
import proofs.«137914_j26551487823936_2_alg».proof.Proof.Gen.Kernel.Frame
import proofs.«137914_j26551487823936_2_alg».proof.Proof.Gen.KernelIdeal
import proofs.«137914_j26551487823936_2_alg».proof.Proof.Gen.KernelIdeal.Skeleton
import proofs.«137914_j26551487823936_2_alg».proof.Proof.Gen.KernelIdeal.Launch
import proofs.«137914_j26551487823936_2_alg».proof.Proof.Gen.KernelIdeal.Points
import proofs.«137914_j26551487823936_2_alg».proof.Proof.Gen.KernelIdeal.Frame
import proofs.«137914_j26551487823936_2_alg».proof.Proof.Gen.ReferenceIdeal
import proofs.«137914_j26551487823936_2_alg».proof.Proof.Gen.Pre_finite_inputs
import proofs.«137914_j26551487823936_2_alg».proof.Proof.Gen.KernelIdeal.Value
import proofs.«137914_j26551487823936_2_alg».proof.Proof.Gen.ReferenceIdeal.Run
import proofs.«137914_j26551487823936_2_alg».proof.Proof.Gen.ReferenceIdeal.Read
import proofs.«137914_j26551487823936_2_alg».proof.Proof.KernelValue
import proofs.«137914_j26551487823936_2_alg».proof.Proof.RefValue
import proofs.«137914_j26551487823936_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, the kernel ends at "aggregate, then transform" of them and the reference
    at "transform, then aggregate" of them: one function on real entries. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hv⟩ := Cert.Finite.real_of_pre _ _ _ _ _ (hpre c)
  rw [Cert.ReferenceIdeal.Read.val_main_v14_eq, Cert.RefValue.result_eq,
    (hagree c).1, (hagree c).2.1, (hagree c).2.2.1, (hagree c).2.2.2.1, (hagree c).2.2.2.2]
  exact (Cert.Spec.aggThenMul_eq_mulThenAgg _ _ _ _ _ hx hW hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
